-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4 : Shape := ⟨1, ![4]⟩
abbrev S8x4096x4096 : Shape := ⟨3, ![8, 4096, 4096]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S8x4096x4096 : S_.BroadcastsInDim S8x4096x4096 (![] : Fin 0 → Fin S8x4096x4096.rank)
  reducesTo_S8x4096x4096_S_d0_1_2 : S8x4096x4096.ReducesTo [0, 1, 2] S_
  bcast_S_S4 : S_.BroadcastsInDim S4 (![] : Fin 0 → Fin S4.rank)
  reducesTo_S4_S_d0 : S4.ReducesTo [0] S_

variable [Facts]

def fn {F : FTy → Type} [FloatOps F] (main_arg0 : FVec F S4x2048x4096 .f32) (main_arg1 : IVec S4 32) (main_arg2 : FVec F S8x4096x4096 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S8x4096x4096 .f32 := Host.absf main_arg2
  let main_cst_0 : FVec F S_ .f32 := constant S_ .f32 0x7F800000#32
  let main_v5 : FVec F S8x4096x4096 .f32 := broadcastInDim S8x4096x4096 ![] bcast_S_S8x4096x4096 main_cst_0
  let main_v6 : IVec S8x4096x4096 1 := cmpf .olt main_v4 main_v5
  let main_c_1 : IVec S_ 1 := constantI S_ 1 1#1
  let main_v7 : IVec S_ 1 := (fun x v => Host.reduce IntOp.andi x v reducesTo_S8x4096x4096_S_d0_1_2 h_S_) main_v6 main_c_1
  let main_v8 : IVec S_ 1 := andi main_v3 main_v7
  let main_c_2 : IVec S_ 32 := constantI S_ 32 0#32
  let main_v9 : IVec S4 32 := broadcastInDim S4 ![] bcast_S_S4 main_c_2
  let main_v10 : IVec S4 1 := cmpi .sge main_arg1 main_v9
  let main_c_3 : IVec S_ 32 := constantI S_ 32 8#32
  let main_v11 : IVec S4 32 := broadcastInDim S4 ![] bcast_S_S4 main_c_3
  let main_v12 : IVec S4 1 := cmpi .slt main_arg1 main_v11
  let main_v13 : IVec S4 1 := andi main_v10 main_v12
  let main_c_4 : IVec S_ 1 := constantI S_ 1 1#1
  let main_v14 : IVec S_ 1 := (fun x v => Host.reduce IntOp.andi x v reducesTo_S4_S_d0 h_S_) main_v13 main_c_4
  let main_v15 : IVec S_ 1 := andi main_v8 main_v14
  main_v15
-- ==== Kernel.lean ====
abbrev S4x2048x4096 : Shape := ⟨3, ![4, 2048, 4096]⟩
abbrev S4 : Shape := ⟨1, ![4]⟩
abbrev S8x4096x4096 : Shape := ⟨3, ![8, 4096, 4096]⟩
abbrev S1x2048x4096 : Shape := ⟨3, ![1, 2048, 4096]⟩
abbrev S1x256x4096 : Shape := ⟨3, ![1, 256, 4096]⟩
abbrev S1 : Shape := ⟨1, ![1]⟩
abbrev S1x2048x256 : Shape := ⟨3, ![1, 2048, 256]⟩
abbrev S2048x4096 : Shape := ⟨2, ![2048, 4096]⟩
abbrev S256x4096 : Shape := ⟨2, ![256, 4096]⟩
abbrev S2048x256 : Shape := ⟨2, ![2048, 256]⟩

abbrev nBuf : Space → Nat
  | .hbm => 4
  | .vmem => 6
  | .smem => 1
  | _ => 0

abbrev bufTy : (tb : Table) → Fin (tcTables nBuf tb) → BufTy
  | .hbm, ⟨0, _⟩ => ⟨S4x2048x4096, .f32⟩
  | .hbm, ⟨1, _⟩ => ⟨S8x4096x4096, .f32⟩
  | .hbm, ⟨2, _⟩ => ⟨S4x2048x4096, .bf16⟩
  | .hbm, ⟨3, _⟩ => ⟨S4x2048x4096, .f32⟩
  | .local _ .vmem, ⟨0, _⟩ => ⟨S1x2048x4096, .bf16⟩
  | .local _ .vmem, ⟨1, _⟩ => ⟨S1x2048x4096, .bf16⟩
  | .local _ .vmem, ⟨2, _⟩ => ⟨S1x256x4096, .f32⟩
  | .local _ .vmem, ⟨3, _⟩ => ⟨S1x256x4096, .f32⟩
  | .local _ .vmem, ⟨4, _⟩ => ⟨S1x2048x256, .f32⟩
  | .local _ .vmem, ⟨5, _⟩ => ⟨S1x2048x256, .f32⟩
  | .local _ .smem, ⟨0, _⟩ => ⟨S4, .i32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg2 : Ref sig .tc := ⟨.hbm, 1, rfl⟩
abbrev main_v0 : Ref sig .tc := ⟨.hbm, 2, rfl⟩
abbrev main_v1 : Ref sig .tc := ⟨.hbm, 3, rfl⟩
abbrev main_arg1 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 16], ![false, false]⟩

abbrev pre0 : Pipeline.Prefetch sig := ⟨1, ![main_arg1.idx], fun | 0 => main_arg1.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (k0_off1_inb : ∀ i : grid0.Coords, ∀ a, (k0_off1 i) a + S1.size a ≤ S4.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S4) ![v0.toNat] S1.size (k0_off1_inb i)) numel1_S1
  let c0_i32 : BitVec 32 := 0#32
  let c0_i32_0 : BitVec 32 := 0#32
  ![v1.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x2048x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  bitsLt_bf16_f32 : FTy.bits .bf16 < FTy.bits .f32
  numel1_S1 : S1.numel = 1
  inb_S1x2048x4096_S1x2048x4096_0_0_0 : ∀ a, (![0, 0, 0] : Fin 3 → Nat) a + S1x2048x4096.size a ≤ S1x2048x4096.size a
  h_S1x2048x4096 : 0 < S1x2048x4096.numel
  shapeCasts_S1x2048x4096_S2048x4096 : S1x2048x4096.ShapeCasts S2048x4096
  inb_S1x256x4096_S1x256x4096_0_0_0 : ∀ a, (![0, 0, 0] : Fin 3 → Nat) a + S1x256x4096.size a ≤ S1x256x4096.size a
  h_S1x256x4096 : 0 < S1x256x4096.numel
  shapeCasts_S1x256x4096_S256x4096 : S1x256x4096.ShapeCasts S256x4096
  inb_S1x2048x256_S1x2048x256_0_0_0 : ∀ a, (![0, 0, 0] : Fin 3 → Nat) a + S1x2048x256.size a ≤ S1x2048x256.size a
  h_S1x2048x256 : 0 < S1x2048x256.numel
  shapeCasts_S1x2048x256_S2048x256 : S1x2048x256.ShapeCasts S2048x256
  shapeCasts_S2048x256_S1x2048x256 : S2048x256.ShapeCasts S1x2048x256
  dot_S2048x4096_S256x4096_S2048x256_1_1_0_0_n_n_wf : DotDims.WF S2048x4096 S256x4096 S2048x256 [1] [1] [0] [0] [] []
  hrank0 : 0 < grid0.rank
  k0_off1_inb : ∀ i : grid0.Coords, ∀ a, (k0_off1 i) a + S1.size a ≤ S4.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x4096.size a ≤ S4x2048x4096.size a
  hwx0_0 : ∀ i : grid0.Coords, EltTy.bits .bf16 = 32 ∨ (Rect.block (s := S4x2048x4096) S1x2048x4096.size (cc0_transform_0 i) (hinb0_0 i)).WholeWords (EltTy.packing .bf16)
  hstage0_1 : ∀ j, (stage0_1 j).IsWhole
  nbuf0_1 : grid0.bufCount reads0_1 false = 2
  hreads0_1 : ∀ {F : FTy → Type} [FloatOps F] (pf : pre0.Contents (Elt F)) (i i' : grid0.Coords), (∀ a, reads0_1 a = true → i a = i' a) → cc0_transform_1 k0_off1_inb numel1_S1 pf i = cc0_transform_1 k0_off1_inb numel1_S1 pf i'
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x256.size a ≤ S4x2048x4096.size a
  hwx0_2 : ∀ i : grid0.Coords, EltTy.bits .f32 = 32 ∨ (Rect.block (s := S4x2048x4096) S1x2048x256.size (cc0_transform_2 i) (hinb0_2 i)).WholeWords (EltTy.packing .f32)

variable [Facts₀]

def dot_S2048x4096_S256x4096_S2048x256_1_1_0_0_n_n : DotDims S2048x4096 S256x4096 S2048x256 where
  lhsContracting := [1]
  rhsContracting := [1]
  lhsNonContracting := [0]
  rhsNonContracting := [0]
  lhsBatch := []
  rhsBatch := []
  wf := dot_S2048x4096_S256x4096_S2048x256_1_1_0_0_n_n_wf

abbrev spec0_0 : Pipeline.WinSpec sig grid0.rank :=
  Pipeline.WinSpec.ofSpec (Memref.whole main_v0) S1x2048x4096.size reads0_0 false false 2 stage0_0 sem0_0 nbuf0_0 hstage0_0

abbrev spec0_1 : Pipeline.WinSpec sig grid0.rank :=
  Pipeline.WinSpec.ofSpec (Memref.whole main_arg2) S1x256x4096.size reads0_1 false false 2 stage0_1 sem0_1 nbuf0_1 hstage0_1

abbrev spec0_2 : Pipeline.WinSpec sig grid0.rank :=
  Pipeline.WinSpec.ofSpec (Memref.whole main_v1) S1x2048x256.size reads0_2 true false 2 stage0_2 sem0_2 nbuf0_2 hstage0_2

abbrev spec0 : Fin 3 → Pipeline.WinSpec sig grid0.rank := fun | 0 => spec0_0 | 1 => spec0_1 | 2 => spec0_2 | ⟨_ + 3, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | ⟨_ + 3, h⟩ => absurd h (Nat.not_lt.2 (Nat.le_add_left _ _))
abbrev ix0 (pf : pre0.Contents (Elt F)) : (w : Fin 3) → grid0.Coords → Fin (spec0 w).shape.rank → Nat := fun | 0 => cc0_transform_0 | 1 => cc0_transform_1 k0_off1_inb numel1_S1 pf | 2 => cc0_transform_2 | ⟨_ + 3, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | 1 => hreads0_1 pf | 2 => hreads0_2 | ⟨_ + 3, h⟩ => absurd h (Nat.not_lt.2 (Nat.le_add_left _ _))
def ok0 (pf : pre0.Contents (Elt F)) : Prop :=
  (∀ i : grid0.Coords, ∃ h : (∀ a, (cc0_transform_1 k0_off1_inb numel1_S1 pf i a + 1) * S1x256x4096.size a ≤ S8x4096x4096.size a), EltTy.bits .f32 = 32 ∨ (Rect.block (s := S8x4096x4096) S1x256x4096.size (cc0_transform_1 k0_off1_inb numel1_S1 pf i) h).WholeWords (EltTy.packing .f32))
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun pf hok => fun | 0 => hinb0_0 | 1 => fun i a => (hok i).elim fun h _ => h a | 2 => hinb0_2 | ⟨_ + 3, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun pf hok => fun | 0 => hwx0_0 | 1 => fun i => (hok i).elim fun _ h => h | 2 => hwx0_2 | ⟨_ + 3, h⟩ => absurd h (Nat.not_lt.2 (Nat.le_add_left _ _))

class Facts : Prop extends Facts₀ where
  harr0 : ∀ w, (spec0 w).arr.IsWhole

variable [Facts]
-- ==== ReferenceIdeal.lean ====
abbrev S4x2048x4096 : Shape := ⟨3, ![4, 2048, 4096]⟩
abbrev S4 : Shape := ⟨1, ![4]⟩
abbrev S8x4096x4096 : Shape := ⟨3, ![8, 4096, 4096]⟩
abbrev S_ : Shape := ⟨0, ![]⟩
abbrev S4x1 : Shape := ⟨2, ![4, 1]⟩
abbrev S1 : Shape := ⟨1, ![1]⟩
abbrev S1x1 : Shape := ⟨2, ![1, 1]⟩
abbrev S4x4096x4096 : Shape := ⟨3, ![4, 4096, 4096]⟩

abbrev nBuf : Space → Nat
  | .hbm => 27
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4, .i32⟩
  | .hbm, ⟨2, _⟩ => ⟨S8x4096x4096, .f32⟩
  | .hbm, ⟨3, _⟩ => ⟨S_, .i32⟩
  | .hbm, ⟨4, _⟩ => ⟨S4, .i32⟩
  | .hbm, ⟨5, _⟩ => ⟨S4, .i1⟩
  | .hbm, ⟨6, _⟩ => ⟨S_, .i32⟩
  | .hbm, ⟨7, _⟩ => ⟨S4, .i32⟩
  | .hbm, ⟨8, _⟩ => ⟨S4, .i32⟩
  | .hbm, ⟨9, _⟩ => ⟨S4, .i32⟩
  | .hbm, ⟨10, _⟩ => ⟨S4x1, .i32⟩
  | .hbm, ⟨11, _⟩ => ⟨S1, .i32⟩
  | .hbm, ⟨12, _⟩ => ⟨S_, .i32⟩
  | .hbm, ⟨13, _⟩ => ⟨S4x1, .i32⟩
  | .hbm, ⟨14, _⟩ => ⟨S4x1, .i1⟩
  | .hbm, ⟨15, _⟩ => ⟨S1x1, .i32⟩
  | .hbm, ⟨16, _⟩ => ⟨S4x1, .i32⟩
  | .hbm, ⟨17, _⟩ => ⟨S4x1, .i1⟩
  | .hbm, ⟨18, _⟩ => ⟨S4x1, .i1⟩
  | .hbm, ⟨19, _⟩ => ⟨S_, .i1⟩
  | .hbm, ⟨20, _⟩ => ⟨S4, .i1⟩
  | .hbm, ⟨21, _⟩ => ⟨S4x4096x4096, .f32⟩
  | .hbm, ⟨22, _⟩ => ⟨S4x4096x4096, .i1⟩
  | .hbm, ⟨23, _⟩ => ⟨S_, .f32⟩
  | .hbm, ⟨24, _⟩ => ⟨S4x4096x4096, .f32⟩
  | .hbm, ⟨25, _⟩ => ⟨S4x4096x4096, .f32⟩
  | .hbm, ⟨26, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c_1 : Ref sig .tc := ⟨.hbm, 11, rfl⟩
abbrev main_call0_c_2 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_3 : Ref sig .tc := ⟨.hbm, 19, rfl⟩
abbrev main_call0_v12 : Ref sig .tc := ⟨.hbm, 20, rfl⟩
abbrev main_call0_v13 : Ref sig .tc := ⟨.hbm, 21, rfl⟩
abbrev main_call0_v14 : Ref sig .tc := ⟨.hbm, 22, rfl⟩
abbrev main_call0_cst : Ref sig .tc := ⟨.hbm, 23, rfl⟩
abbrev main_call0_v15 : Ref sig .tc := ⟨.hbm, 24, rfl⟩
abbrev main_v0 : Ref sig .tc := ⟨.hbm, 25, rfl⟩
abbrev main_v1 : Ref sig .tc := ⟨.hbm, 26, rfl⟩

abbrev nD : Nat := 1
abbrev τ : Topo := Topo.v7x

variable {F : FTy → Type} [FloatOps F]

class Facts₀ : Prop where
  bcast_S_S4 : S_.BroadcastsInDim S4 (![] : Fin 0 → Fin S4.rank)
  bcast_S4_S4x1_0 : S4.BroadcastsInDim S4x1 (![0] : Fin 1 → Fin S4x1.rank)
  bcast_S_S4x1 : S_.BroadcastsInDim S4x1 (![] : Fin 0 → Fin S4x1.rank)
  bcast_S1_S1x1_1 : S1.BroadcastsInDim S1x1 (![1] : Fin 1 → Fin S1x1.rank)
  bcast_S1x1_S4x1_0_1 : S1x1.BroadcastsInDim S4x1 (![0, 1] : Fin 2 → Fin S4x1.rank)
  reducesTo_S4x1_S4_d1 : S4x1.ReducesTo [1] S4
  h_S_ : 0 < S_.numel
  bcast_S4_S4x4096x4096_0 : S4.BroadcastsInDim S4x4096x4096 (![0] : Fin 1 → Fin S4x4096x4096.rank)
  bcast_S_S4x4096x4096 : S_.BroadcastsInDim S4x4096x4096 (![] : Fin 0 → Fin S4x4096x4096.rank)
  gather_S8x4096x4096_S4x1_S4x4096x4096_12_0_n_n_0_1_140964096_wf : GatherDims.WF S8x4096x4096 S4x1 S4x4096x4096 [1, 2] [0] [] [0] [] 1 ![1, 4096, 4096]
  dot_S4x2048x4096_S4x4096x4096_S4x2048x4096_2_2_1_1_0_0_wf : DotDims.WF S4x2048x4096 S4x4096x4096 S4x2048x4096 [2] [2] [1] [1] [0] [0]

variable [Facts₀]

def gather_S8x4096x4096_S4x1_S4x4096x4096_12_0_n_n_0_1_140964096 : GatherDims S8x4096x4096 S4x1 S4x4096x4096 where
  offsetDims := [1, 2]
  collapsedSliceDims := [0]
  operandBatchingDims := []
  startIndicesBatchingDims := []
  startIndexMap := [0]
  indexVectorDim := 1
  sliceSizes := ![1, 4096, 4096]
  wf := gather_S8x4096x4096_S4x1_S4x4096x4096_12_0_n_n_0_1_140964096_wf
def dot_S4x2048x4096_S4x4096x4096_S4x2048x4096_2_2_1_1_0_0 : DotDims S4x2048x4096 S4x4096x4096 S4x2048x4096 where
  lhsContracting := [2]
  rhsContracting := [2]
  lhsNonContracting := [1]
  rhsNonContracting := [1]
  lhsBatch := [0]
  rhsBatch := [0]
  wf := dot_S4x2048x4096_S4x4096x4096_S4x2048x4096_2_2_1_1_0_0_wf

class Facts : Prop extends Facts₀ where

variable [Facts]
-- ==== Proof.IdsRange.lean ====
/-
  The adapter ids are block numbers of the weight bank.

  The precondition says, beside the finiteness of the float inputs, that every adapter id is at least 0 and below 8
  as a signed 32-bit integer. A word whose signed value lies in [0, 8) has the same unsigned value, so every id,
  read as a natural number, is below 8: it names one of the eight adapters of the bank.
-/
import proofs.«165096_g63883343560842_cont_9to1_m_1300_3_alg».proof.Pre_finite_inputs
import proofs.«165096_g63883343560842_cont_9to1_m_1300_3_alg».proof.Proof.Gen.Pre_finite_inputs
import Idealize.ShloMosaic.Lib.ReduceAll
import Idealize.ShloMosaic.Lib.ValueIdx

noncomputable section

namespace Cert.IdsRange

open Idealize.ShloMosaic Idealize.ShloMosaic.ValueIdx

/-- The scalar shape has one index. -/
instance : Subsingleton Cert.Pre_finite_inputs.S_.Idx := ⟨fun a b => funext fun d => d.elim0⟩

/-- A 32-bit word whose signed value is in [0, 8) is below 8 unsigned, and its signed value is its unsigned one. -/
theorem toNat_of_signed (w : BitVec 32) (h0 : (0#32 : BitVec 32).toInt ≤ w.toInt) (h8 : w.toInt < (8#32 : BitVec 32).toInt) :
    w.toNat < 8 ∧ w.toInt = (w.toNat : Int) := by
  have e0 : (0#32 : BitVec 32).toInt = 0 := by decide
  have e8 : (8#32 : BitVec 32).toInt = 8 := by decide
  rw [e0] at h0
  rw [e8] at h8
  have h32 := w.isLt
  rw [BitVec.toInt_eq_toNat_cond] at h0 h8 ⊢
  by_cases hc : 2 * w.toNat < 2 ^ 32
  · rw [if_pos hc] at h0 h8 ⊢
    exact ⟨by omega, rfl⟩
  · rw [if_neg hc] at h0 h8
    omega

variable {F : FTy → Type} [FloatOps F]

/-- The precondition read at adapter slot k: the id there is in [0, 8) as a signed integer. -/
theorem signed_range (x : FVec F Cert.Pre_finite_inputs.S4x2048x4096 .f32) (ids : IVec Cert.Pre_finite_inputs.S4 32)
    (w : FVec F Cert.Pre_finite_inputs.S8x4096x4096 .f32)
    (h : Cert.Pre_finite_inputs.fn x ids w = fun _ => 1#1) (k : Fin 4) :
    (0#32 : BitVec 32).toInt ≤ (ids (ix1 k)).toInt ∧ (ids (ix1 k)).toInt < (8#32 : BitVec 32).toInt := by
  have e := congrFun h ix0
  dsimp only [Cert.Pre_finite_inputs.fn] at e
  have e3 := (IntOp.andi_eq_one.1 e).2
  have ek := Host.reduce_andi_all _ _ _ _ _ e3 (ix1 k)
  obtain ⟨a, b⟩ := IntOp.andi_eq_one.1 ek
  exact ⟨IntOp.cmpi_sge.1 a, IntOp.cmpi_slt.1 b⟩

/-- So every id is below 8 as a natural number, -/
theorem ids_lt (x : FVec F Cert.Pre_finite_inputs.S4x2048x4096 .f32) (ids : IVec Cert.Pre_finite_inputs.S4 32)
    (w : FVec F Cert.Pre_finite_inputs.S8x4096x4096 .f32)
    (h : Cert.Pre_finite_inputs.fn x ids w = fun _ => 1#1) (k : Fin 4) : (ids (ix1 k)).toNat < 8 :=
  (toNat_of_signed _ (signed_range x ids w h k).1 (signed_range x ids w h k).2).1

/-- and its signed reading is that natural number. -/
theorem ids_toInt (x : FVec F Cert.Pre_finite_inputs.S4x2048x4096 .f32) (ids : IVec Cert.Pre_finite_inputs.S4 32)
    (w : FVec F Cert.Pre_finite_inputs.S8x4096x4096 .f32)
    (h : Cert.Pre_finite_inputs.fn x ids w = fun _ => 1#1) (k : Fin 4) : (ids (ix1 k)).toInt = ((ids (ix1 k)).toNat : Int) :=
  (toNat_of_signed _ (signed_range x ids w h k).1 (signed_range x ids w h k).2).2

end Cert.IdsRange

end
-- ==== Proof.OkBits.lean ====
/-
  Every weight block the pipeline fetches lies inside the weight bank.

  The weight window's block index at grid point (b, o) is (ids[b], o, 0): the adapter id of batch entry b read from
  the prefetched table, the out-feature tile o, and the whole in-feature axis. The bank is [8, 4096, 4096] and a
  block [1, 256, 4096], so the block is inside the bank exactly when ids[b] < 8 (o < 16 always holds on the grid).
  The precondition gives ids[b] < 8 for every b, which is the pipeline's side condition on the table.
-/
import proofs.«165096_g63883343560842_cont_9to1_m_1300_3_alg».proof.Defs
import proofs.«165096_g63883343560842_cont_9to1_m_1300_3_alg».proof.Proof.Gen.Kernel.Frame
import proofs.«165096_g63883343560842_cont_9to1_m_1300_3_alg».proof.Proof.IdsRange

noncomputable section

namespace Cert.Kernel.OkOfPre

open Cert.Kernel Cert.Kernel.Gen
open Idealize.ShloMosaic Idealize.ShloMosaic.TcCoe Idealize.SL.Sem Idealize.ShloMosaic.ValueIdx

variable {F : FTy → Type} [FloatOps F]

/-- For any contents of the table: the weight window's block index at a grid point is the table's word at some
    slot, the point's second coordinate, and 0. -/
theorem weight_index (pf : pre0.Contents (Elt F)) (i : grid0.Coords) :
    ∃ x : S4.Idx, cc0_transform_1 Facts₀.k0_off1_inb Facts₀.numel1_S1 pf i
      = ![(pf 0 x : BitVec 32).toNat, (BitVec.ofNat 32 (i 1).val).toNat, 0] :=
  ⟨_, rfl⟩

/-- If every word of the table is below 8, every weight block is inside the bank. -/
theorem ok0_of_lt (pf : pre0.Contents (Elt F)) (h : ∀ x : S4.Idx, (pf 0 x : BitVec 32).toNat < 8) : ok0 pf := by
  intro i
  obtain ⟨x, e⟩ := weight_index pf i
  refine ⟨fun a => ?_, Or.inl rfl⟩
  rw [e]
  have hx := h x
  have hi : (i 1).val < 16 := (i 1).isLt
  have hm : (BitVec.ofNat 32 (i 1).val).toNat = (i 1).val := by
    rw [BitVec.toNat_ofNat]; exact Nat.mod_eq_of_lt (by omega)
  match a with
  | ⟨0, _⟩ => show ((pf 0 x : BitVec 32).toNat + 1) * 1 ≤ 8; omega
  | ⟨1, _⟩ => show ((BitVec.ofNat 32 (i 1).val).toNat + 1) * 256 ≤ 4096; rw [hm]; omega
  | ⟨2, _⟩ => show (0 + 1) * 4096 ≤ 4096; omega

/-- The table the region reads is the adapter-id argument as launched. -/
theorem tbl_eq (m : (ℓ : Loc nD τ sig) → Buf (Elt F) ℓ) (x : S4.Idx) :
    (tbl m 0 x : BitVec 32) = (m (((0 : Dev nD) : Thread nD τ).loc main_arg1) : S4.Idx → BitVec 32) x :=
  congrFun (V_main_arg1 m 0) x

/-- Under the precondition the pipeline's side condition on the table holds. -/
theorem ok_of_pre (m : (ℓ : Loc nD τ sig) → Buf (Elt Bits) ℓ) (h : Cert.Pre_Kernel m) : Ok m := by
  apply ok0_of_lt
  intro x
  rw [tbl_eq m x, eq_ix1 x]
  exact Cert.IdsRange.ids_lt _ _ _ (h 0) (x 0)

end Cert.Kernel.OkOfPre

end
-- ==== Proof.OkIdeal.lean ====
/-
  Every weight block the pipeline fetches lies inside the weight bank.

  The weight window's block index at grid point (b, o) is (ids[b], o, 0): the adapter id of batch entry b read from
  the prefetched table, the out-feature tile o, and the whole in-feature axis. The bank is [8, 4096, 4096] and a
  block [1, 256, 4096], so the block is inside the bank exactly when ids[b] < 8 (o < 16 always holds on the grid).
  The precondition gives ids[b] < 8 for every b, which is the pipeline's side condition on the table.
-/
import proofs.«165096_g63883343560842_cont_9to1_m_1300_3_alg».proof.Defs
import proofs.«165096_g63883343560842_cont_9to1_m_1300_3_alg».proof.Proof.Gen.KernelIdeal.Frame
import proofs.«165096_g63883343560842_cont_9to1_m_1300_3_alg».proof.Proof.IdsRange

noncomputable section

namespace Cert.KernelIdeal.OkOfPre

open Cert.KernelIdeal Cert.KernelIdeal.Gen
open Idealize.ShloMosaic Idealize.ShloMosaic.TcCoe Idealize.SL.Sem Idealize.ShloMosaic.ValueIdx

variable {F : FTy → Type} [FloatOps F]

/-- For any contents of the table: the weight window's block index at a grid point is the table's word at some
    slot, the point's second coordinate, and 0. -/
theorem weight_index (pf : pre0.Contents (Elt F)) (i : grid0.Coords) :
    ∃ x : S4.Idx, cc0_transform_1 Facts₀.k0_off1_inb Facts₀.numel1_S1 pf i
      = ![(pf 0 x : BitVec 32).toNat, (BitVec.ofNat 32 (i 1).val).toNat, 0] :=
  ⟨_, rfl⟩

/-- If every word of the table is below 8, every weight block is inside the bank. -/
theorem ok0_of_lt (pf : pre0.Contents (Elt F)) (h : ∀ x : S4.Idx, (pf 0 x : BitVec 32).toNat < 8) : ok0 pf := by
  intro i
  obtain ⟨x, e⟩ := weight_index pf i
  refine ⟨fun a => ?_, Or.inl rfl⟩
  rw [e]
  have hx := h x
  have hi : (i 1).val < 16 := (i 1).isLt
  have hm : (BitVec.ofNat 32 (i 1).val).toNat = (i 1).val := by
    rw [BitVec.toNat_ofNat]; exact Nat.mod_eq_of_lt (by omega)
  match a with
  | ⟨0, _⟩ => show ((pf 0 x : BitVec 32).toNat + 1) * 1 ≤ 8; omega
  | ⟨1, _⟩ => show ((BitVec.ofNat 32 (i 1).val).toNat + 1) * 256 ≤ 4096; rw [hm]; omega
  | ⟨2, _⟩ => show (0 + 1) * 4096 ≤ 4096; omega

/-- The table the region reads is the adapter-id argument as launched. -/
theorem tbl_eq (m : (ℓ : Loc nD τ sig) → Buf (Elt F) ℓ) (x : S4.Idx) :
    (tbl m 0 x : BitVec 32) = (m (((0 : Dev nD) : Thread nD τ).loc main_arg1) : S4.Idx → BitVec 32) x :=
  congrFun (V_main_arg1 m 0) x

/-- Under the precondition the pipeline's side condition on the table holds. -/
theorem ok_of_pre (m : (ℓ : Loc nD τ sig) → Buf (Elt Ideal) ℓ) (h : Cert.Pre_KernelIdeal m) : Ok m := by
  apply ok0_of_lt
  intro x
  rw [tbl_eq m x, eq_ix1 x]
  exact Cert.IdsRange.ids_lt _ _ _ (h 0) (x 0)

end Cert.KernelIdeal.OkOfPre

end
-- ==== Proof.LibDotLast.lean ====
/-
  Matrix products whose two operands are both contracted on their LAST axis, read at an entry.

  Rank 2: an [n, K] operand and an [M, K] operand into [n, M] (the right operand "transposed"): entry (p, c) is the
  sum over k of L (p, k) * R (c, k). Rank 3, batched on the leading axis: [B, n, K] and [B, M, K] into [B, n, M]:
  entry (b, p, c) is the sum over k of L (b, p, k) * R (b, c, k). In both, the sum over the dimension numbers'
  contraction index is re-indexed by the one contracted coordinate; the other coordinates of the two operand indices
  are read off the output index. Over the extended reals a kernel's matrix unit into a zero accumulator and the host's
  dot_general are both this sum: nothing is left of rounding or of the order of accumulation.
-/
import Idealize.ShloMosaic.PureOps.Ideal.Laws
import Idealize.ShloMosaic.Lib.ValueIdx

noncomputable section

namespace Cert.LibDotLast

open Idealize.ShloMosaic Idealize.ShloMosaic.ValueIdx

section Rank2

variable {n K M : Nat}

/-- Dimension numbers of a rank-2 product contracting both last axes, no batch axis. -/
structure IsLast2 (d : DotDims ⟨2, ![n, K]⟩ ⟨2, ![M, K]⟩ ⟨2, ![n, M]⟩) : Prop where
  lc : d.lhsContracting = [1]
  rc : d.rhsContracting = [1]
  ln : d.lhsNonContracting = [0]
  rn : d.rhsNonContracting = [0]
  lb : d.lhsBatch = []
  rb : d.rhsBatch = []

/-- The contraction sum at output index i is the sum over the contracted coordinate k of (i 0, k) against (i 1, k). -/
theorem sum_contr2 {α : Type} [AddCommMonoid α] (d : DotDims ⟨2, ![n, K]⟩ ⟨2, ![M, K]⟩ ⟨2, ![n, M]⟩) (hd : IsLast2 d)
    (f : (⟨2, ![n, K]⟩ : Shape).Idx → (⟨2, ![M, K]⟩ : Shape).Idx → α) (i : (⟨2, ![n, M]⟩ : Shape).Idx) :
    ∑ q : d.contr.Idx, f (d.lhsIdx i q) (d.rhsIdx i q) = ∑ k : Fin K, f (ix2 (i 0) k) (ix2 (i 1) k) := by
  obtain ⟨lc, rc, ln, rn, lb, rb, wf⟩ := d
  obtain ⟨h1, h2, h3, h4, h5, h6⟩ := hd
  simp only at h1 h2 h3 h4 h5 h6
  subst h1 h2 h3 h4 h5 h6
  let d : DotDims ⟨2, ![n, K]⟩ ⟨2, ![M, K]⟩ ⟨2, ![n, M]⟩ := ⟨[1], [1], [0], [0], [], [], wf⟩
  show ∑ q : d.contr.Idx, f (d.lhsIdx i q) (d.rhsIdx i q) = _
  rw [← Equiv.sum_comp (contrEquiv1 d K rfl rfl).symm]
  refine Finset.sum_congr rfl fun k _ => ?_
  have hk := contrEquiv1_symm_val d K rfl rfl k
  have el : d.lhsIdx i ((contrEquiv1 d K rfl rfl).symm k) = ix2 (i 0) k := funext fun a => Fin.ext (by
    match a with
    | ⟨0, _⟩ =>
      show (d.lhsIdx i _ 0).val = (i 0).val
      unfold DotDims.lhsIdx
      rw [dif_neg (show ¬(0 : Fin (⟨2, ![n, K]⟩ : Shape).rank) ∈ d.lhsBatch from List.not_mem_nil),
        dif_pos (show (0 : Fin (⟨2, ![n, K]⟩ : Shape).rank) ∈ d.lhsNonContracting from List.mem_singleton.mpr rfl)]
      rfl
    | ⟨1, _⟩ => exact (d.lhsIdx_val_of_single rfl i _).trans hk)
  have er : d.rhsIdx i ((contrEquiv1 d K rfl rfl).symm k) = ix2 (i 1) k := funext fun a => Fin.ext (by
    match a with
    | ⟨0, _⟩ =>
      show (d.rhsIdx i _ 0).val = (i 1).val
      unfold DotDims.rhsIdx
      rw [dif_neg (show ¬(0 : Fin (⟨2, ![M, K]⟩ : Shape).rank) ∈ d.rhsBatch from List.not_mem_nil),
        dif_pos (show (0 : Fin (⟨2, ![M, K]⟩ : Shape).rank) ∈ d.rhsNonContracting from List.mem_singleton.mpr rfl)]
      rfl
    | ⟨1, _⟩ => exact (d.rhsIdx_val_of_single rfl i _).trans hk)
  rw [el, er]
  try rfl

variable {φ₁ φ₂ : FTy}

/-- A kernel's matrix-unit product with such dimension numbers into a zero accumulator, at entry (p, c). -/
theorem matmul_zero_apply (d : DotDims ⟨2, ![n, K]⟩ ⟨2, ![M, K]⟩ ⟨2, ![n, M]⟩) (hd : IsLast2 d) (prec : Option ContractPrecision)
    (lhs : FVec Ideal ⟨2, ![n, K]⟩ φ₁) (rhs : FVec Ideal ⟨2, ![M, K]⟩ φ₂) (p : Fin n) (c : Fin M) :
    FloatOps.matmul d prec lhs rhs (constant ⟨2, ![n, M]⟩ .f32 0x00000000#32) (ix2 p c)
      = ∑ k : Fin K, lhs (ix2 p k) * rhs (ix2 c k) :=
  (Ideal.matmul_constant_zero_apply d prec lhs rhs (ix2 p c)).trans
    (sum_contr2 d hd (fun a b => lhs a * rhs b) (ix2 p c))

end Rank2

section Rank3

variable {B n K M : Nat}

/-- Dimension numbers of a rank-3 product batched on axis 0 and contracting both last axes. -/
structure IsLast3 (d : DotDims ⟨3, ![B, n, K]⟩ ⟨3, ![B, M, K]⟩ ⟨3, ![B, n, M]⟩) : Prop where
  lc : d.lhsContracting = [2]
  rc : d.rhsContracting = [2]
  ln : d.lhsNonContracting = [1]
  rn : d.rhsNonContracting = [1]
  lb : d.lhsBatch = [0]
  rb : d.rhsBatch = [0]

/-- The contraction sum at output index i is the sum over k of (i 0, i 1, k) against (i 0, i 2, k). -/
theorem sum_contr3 {α : Type} [AddCommMonoid α] (d : DotDims ⟨3, ![B, n, K]⟩ ⟨3, ![B, M, K]⟩ ⟨3, ![B, n, M]⟩) (hd : IsLast3 d)
    (f : (⟨3, ![B, n, K]⟩ : Shape).Idx → (⟨3, ![B, M, K]⟩ : Shape).Idx → α) (i : (⟨3, ![B, n, M]⟩ : Shape).Idx) :
    ∑ q : d.contr.Idx, f (d.lhsIdx i q) (d.rhsIdx i q) = ∑ k : Fin K, f (ix3 (i 0) (i 1) k) (ix3 (i 0) (i 2) k) := by
  obtain ⟨lc, rc, ln, rn, lb, rb, wf⟩ := d
  obtain ⟨h1, h2, h3, h4, h5, h6⟩ := hd
  simp only at h1 h2 h3 h4 h5 h6
  subst h1 h2 h3 h4 h5 h6
  let d : DotDims ⟨3, ![B, n, K]⟩ ⟨3, ![B, M, K]⟩ ⟨3, ![B, n, M]⟩ := ⟨[2], [2], [1], [1], [0], [0], wf⟩
  show ∑ q : d.contr.Idx, f (d.lhsIdx i q) (d.rhsIdx i q) = _
  rw [← Equiv.sum_comp (contrEquiv1 d K rfl rfl).symm]
  refine Finset.sum_congr rfl fun k _ => ?_
  have hk := contrEquiv1_symm_val d K rfl rfl k
  have el : d.lhsIdx i ((contrEquiv1 d K rfl rfl).symm k) = ix3 (i 0) (i 1) k := funext fun a => Fin.ext (by
    match a with
    | ⟨0, _⟩ =>
      show (d.lhsIdx i _ 0).val = (i 0).val
      unfold DotDims.lhsIdx
      rw [dif_pos (show (0 : Fin (⟨3, ![B, n, K]⟩ : Shape).rank) ∈ d.lhsBatch from List.mem_singleton.mpr rfl)]
      rfl
    | ⟨1, _⟩ =>
      show (d.lhsIdx i _ 1).val = (i 1).val
      unfold DotDims.lhsIdx
      rw [dif_neg (show ¬(1 : Fin (⟨3, ![B, n, K]⟩ : Shape).rank) ∈ d.lhsBatch from fun h => Nat.one_ne_zero (congrArg Fin.val (List.mem_singleton.mp h))),
        dif_pos (show (1 : Fin (⟨3, ![B, n, K]⟩ : Shape).rank) ∈ d.lhsNonContracting from List.mem_singleton.mpr rfl)]
      rfl
    | ⟨2, _⟩ => exact (d.lhsIdx_val_of_single rfl i _).trans hk)
  have er : d.rhsIdx i ((contrEquiv1 d K rfl rfl).symm k) = ix3 (i 0) (i 2) k := funext fun a => Fin.ext (by
    match a with
    | ⟨0, _⟩ =>
      show (d.rhsIdx i _ 0).val = (i 0).val
      unfold DotDims.rhsIdx
      rw [dif_pos (show (0 : Fin (⟨3, ![B, M, K]⟩ : Shape).rank) ∈ d.rhsBatch from List.mem_singleton.mpr rfl)]
      rfl
    | ⟨1, _⟩ =>
      show (d.rhsIdx i _ 1).val = (i 2).val
      unfold DotDims.rhsIdx
      rw [dif_neg (show ¬(1 : Fin (⟨3, ![B, M, K]⟩ : Shape).rank) ∈ d.rhsBatch from fun h => Nat.one_ne_zero (congrArg Fin.val (List.mem_singleton.mp h))),
        dif_pos (show (1 : Fin (⟨3, ![B, M, K]⟩ : Shape).rank) ∈ d.rhsNonContracting from List.mem_singleton.mpr rfl)]
      rfl
    | ⟨2, _⟩ => exact (d.rhsIdx_val_of_single rfl i _).trans hk)
  rw [el, er]
  try rfl

variable {φ₁ φ₂ : FTy}

/-- The host's dot_general with such dimension numbers, at entry (b, p, c). -/
theorem dotGeneral_apply (d : DotDims ⟨3, ![B, n, K]⟩ ⟨3, ![B, M, K]⟩ ⟨3, ![B, n, M]⟩) (hd : IsLast3 d) (prec : Option ContractPrecision)
    (sched : HostSchedule) (lhs : FVec Ideal ⟨3, ![B, n, K]⟩ φ₁) (rhs : FVec Ideal ⟨3, ![B, M, K]⟩ φ₂)
    (b : Fin B) (p : Fin n) (c : Fin M) :
    FloatOps.dotGeneral d prec sched lhs rhs (ix3 b p c) = ∑ k : Fin K, lhs (ix3 b p k) * rhs (ix3 b c k) :=
  (Ideal.dotGeneral_apply d prec sched lhs rhs (ix3 b p c)).trans
    (sum_contr3 d hd (fun a b => lhs a * rhs b) (ix3 b p c))

end Rank3

end Cert.LibDotLast

end
-- ==== Proof.PayEntry.lean ====
/-
  What the kernel body stores, read at one entry.

  The body loads the activation block [1, 2048, 4096] and the weight block [1, 256, 4096], drops their leading unit
  axes, multiplies the [2048, 4096] matrix with the [256, 4096] matrix contracting both last axes into a zero
  accumulator, and stores the [2048, 256] product as a [1, 2048, 256] block. Over the extended reals the change of
  format on the way in is the identity, so entry (0, s, o) of the stored block is the sum over d of
  activation (0, s, d) * weight (0, o, d).
-/
import proofs.«165096_g63883343560842_cont_9to1_m_1300_3_alg».proof.Proof.Gen.KernelIdeal.Skeleton
import proofs.«165096_g63883343560842_cont_9to1_m_1300_3_alg».proof.Proof.LibDotLast
import Idealize.ShloMosaic.Lib.Pipeline.Value
import Idealize.ShloMosaic.Lib.ValueIdx

noncomputable section

namespace Cert.KernelIdeal.PayEntry

open Cert.KernelIdeal Cert.KernelIdeal.Gen
open Idealize.ShloMosaic Idealize.ShloMosaic.ValueIdx

/-- The body's product contracts both operands' last axes and has no batch axis. -/
theorem dot_last : Cert.LibDotLast.IsLast2 dot_S2048x4096_S256x4096_S2048x256_1_1_0_0_n_n := ⟨rfl, rfl, rfl, rfl, rfl, rfl⟩

/-- A [1, h, w] block viewed as [h, w] reads (0, r, k) at (r, k). -/
theorem drop_unit {α : Type} {h w : Nat} (v : (⟨3, ![1, h, w]⟩ : Shape).Idx → α)
    (hc : (⟨3, ![1, h, w]⟩ : Shape).ShapeCasts ⟨2, ![h, w]⟩) (r : Fin h) (k : Fin w) :
    shapeCast ⟨2, ![h, w]⟩ v hc (ix2 r k) = v (ix3 (0 : Fin 1) r k) :=
  (shapeCast_dropUnit_apply ![h, w] v hc (ix2 r k)).trans (congrArg v (funext fun a => by
    match a with | ⟨0, _⟩ => rfl | ⟨1, _⟩ => rfl | ⟨2, _⟩ => rfl))

/-- An [h, w] matrix stored as a [1, h, w] block reads (r, k) at (z, r, k). -/
theorem add_unit {α : Type} {h w : Nat} (v : (⟨2, ![h, w]⟩ : Shape).Idx → α)
    (hc : (⟨2, ![h, w]⟩ : Shape).ShapeCasts ⟨3, ![1, h, w]⟩) (z : Fin 1) (r : Fin h) (k : Fin w) :
    shapeCast ⟨3, ![1, h, w]⟩ v hc (ix3 z r k) = v (ix2 r k) :=
  (shapeCast_addUnit_apply ![h, w] v hc (ix3 z r k)).trans (congrArg v (funext fun a => by
    match a with | ⟨0, _⟩ => rfl | ⟨1, _⟩ => rfl))

/-- THE STORED BLOCK AT AN ENTRY: the inner product over the in-feature axis of the two loaded blocks' rows. -/
theorem pay_entry (v0 : Vec Ideal S1x2048x4096 .bf16) (v2 : Vec Ideal S1x256x4096 .f32) (z : Fin 1) (s : Fin 2048) (o : Fin 256) :
    (k0_pay1 v0 v2 (ix3 z s o) : EReal)
      = ∑ d : Fin 4096, (v0 (ix3 (0 : Fin 1) s d) : EReal) * (v2 (ix3 (0 : Fin 1) o d) : EReal) := by
  unfold k0_pay1
  refine (add_unit _ _ z s o).trans ?_
  refine (Cert.LibDotLast.matmul_zero_apply dot_S2048x4096_S256x4096_S2048x256_1_1_0_0_n_n dot_last none _ _ s o).trans ?_
  refine Finset.sum_congr rfl fun d _ => ?_
  rw [drop_unit]
  show _ * (shapeCast S256x4096 v2 _ (ix2 o d) : EReal) = _
  rw [drop_unit]

end Cert.KernelIdeal.PayEntry

end
-- ==== Proof.Spec.lean ====
/-
  The multi-adapter linear layer as one function of its three arrays.

  x is [4, 2048, 4096] (batch, position, in-feature), w the bank [8, 4096, 4096] (adapter, out-feature, in-feature) and
  ids the four adapter ids. Entry (b, s, o) of the result is the inner product over the in-feature axis of row (b, s) of x
  with row o of the weight matrix of batch entry b's adapter:

      out (b, s, o) = sum over d of x (b, s, d) * w (adapter b, o, d).

  The adapter of batch entry b is its id read as a natural number; it is written here reduced below 8 so that it is an index
  of the bank for every word, and it is the id itself whenever the id is below 8. The sum is a finite sum in the extended
  reals; nothing about it needs the entries to be finite.
-/
import Idealize.ShloMosaic.PureOps.Ideal
import Idealize.ShloMosaic.Lib.ValueIdx

noncomputable section

namespace Cert.LoraSpec

open Idealize.ShloMosaic Idealize.ShloMosaic.ValueIdx

/-- The adapter of batch entry b. -/
def adapter (ids : (⟨1, ![4]⟩ : Shape).Idx → BitVec 32) (b : Fin 4) : Fin 8 :=
  ⟨(ids (ix1 b)).toNat % 8, Nat.mod_lt _ (by decide)⟩

/-- It is the id itself when the id is below 8. -/
theorem adapter_val (ids : (⟨1, ![4]⟩ : Shape).Idx → BitVec 32) (b : Fin 4) (h : (ids (ix1 b)).toNat < 8) :
    (adapter ids b).val = (ids (ix1 b)).toNat := Nat.mod_eq_of_lt h

/-- Entry (b, s, o) of the result. -/
def entry (x : (⟨3, ![4, 2048, 4096]⟩ : Shape).Idx → EReal) (ids : (⟨1, ![4]⟩ : Shape).Idx → BitVec 32)
    (w : (⟨3, ![8, 4096, 4096]⟩ : Shape).Idx → EReal) (b : Fin 4) (s : Fin 2048) (o : Fin 4096) : EReal :=
  ∑ d : Fin 4096, x (ix3 b s d) * w (ix3 (adapter ids b) o d)

/-- The result array. -/
def out (x : (⟨3, ![4, 2048, 4096]⟩ : Shape).Idx → EReal) (ids : (⟨1, ![4]⟩ : Shape).Idx → BitVec 32)
    (w : (⟨3, ![8, 4096, 4096]⟩ : Shape).Idx → EReal) : (⟨3, ![4, 2048, 4096]⟩ : Shape).Idx → EReal :=
  fun j => entry x ids w (j 0) (j 1) (j 2)

theorem out_ix3 (x : (⟨3, ![4, 2048, 4096]⟩ : Shape).Idx → EReal) (ids : (⟨1, ![4]⟩ : Shape).Idx → BitVec 32)
    (w : (⟨3, ![8, 4096, 4096]⟩ : Shape).Idx → EReal) (b : Fin 4) (s : Fin 2048) (o : Fin 4096) :
    out x ids w (ix3 b s o) = entry x ids w b s o := rfl

end Cert.LoraSpec

end
-- ==== Proof.KernelValue.lean ====
/-
  What the kernel leaves in the result array, over the extended reals.

  Grid point t = (b, o) fetches block (b, 0, 0) of the activations (a [1, 2048, 4096] slab), block (ids[b], o, 0) of the
  weight bank (256 rows of the adapter ids[b] selects, read from the prefetched table) and writes back block (b, 0, o) of
  the result. The body's one store leaves, at entry (0, s, r) of the output block, the inner product over the in-feature
  axis of row s of the activation slab with row r of the weight block; read through the blocks that is

      sum over d of x (b, s, d) * weight (ids[b], 256·o + r, d),

  the specification's function at the array index (b, s, 256·o + r) the entry is written back to. The 64 output blocks tile the
  result array (index (b, s, c) lies in the block of point (b, c / 256)), so the array ends holding the specification's
  function everywhere. The host's change of format of x before the call is the identity on extended reals.

  Every fact about the windows is proved for an arbitrary admissible contents of the prefetched table and only then used at
  the table the launch memory holds.
-/
import proofs.«165096_g63883343560842_cont_9to1_m_1300_3_alg».proof.Proof.Gen.KernelIdeal.Frame
import proofs.«165096_g63883343560842_cont_9to1_m_1300_3_alg».proof.Proof.PayEntry
import proofs.«165096_g63883343560842_cont_9to1_m_1300_3_alg».proof.Proof.OkIdeal
import proofs.«165096_g63883343560842_cont_9to1_m_1300_3_alg».proof.Proof.Spec
import Idealize.ShloMosaic.Lib.Pipeline.Value
import Idealize.ShloMosaic.Lib.StableHlo.Run

set_option maxRecDepth 16384

noncomputable section

namespace Cert.KernelIdeal.KValue

open Cert.KernelIdeal Cert.KernelIdeal.Gen
open Idealize.ShloMosaic Idealize.ShloMosaic.TcCoe Idealize.SL.Sem Idealize.ShloMosaic.Tactic Idealize.ShloMosaic.ValueIdx
open Idealize.ShloMosaic.Pipeline (Dat)

/-! ## The index maps at a grid point (b, o), for any contents of the table -/

theorem hz3 : (![0, 0, 0] : Fin 3 → Nat) = fun _ => 0 := funext fun a => by fin_cases a <;> rfl

section AnyF
variable {F : FTy → Type} [FloatOps F]

/-- The body's one store leaves the output block at the payload of the two loaded blocks. -/
theorem out_piece (c : Dev nD) (i : grid0.Coords) (arg3 : Memref sig .tc .vmem S1x2048x4096 .bf16) (harg3 : arg3.IsWhole) (arg4 : Memref sig .tc .vmem S1x256x4096 .f32) (harg4 : arg4.IsWhole) (arg5 : Memref sig .tc .vmem S1x2048x256 .f32) (harg5 : arg5.IsWhole)
    (x0 : Vec F S1x2048x4096 .bf16) (x1 : Vec F S1x256x4096 .f32) (xt0 : TbBuf0 (F := F) c tbM0_0) :
    out0_A_2 c i arg3 harg3 arg4 harg4 arg5 harg5 x0 x1 xt0 = k0_pay1 x0 x1 := by
  unfold out0_A_2
  rw [View.read_writes_eq_canon _ _ _ (cover0_A_2 c i arg3 harg3 arg4 harg4 arg5 harg5 x0 x1 xt0)]
  unfold kernelRun0_A
  dsimp only
  rw [View.canon_unit_zero hz3]
  simp only [View.readAt_eq_ld, harg3.read_unread, harg4.read_unread, View.ld_unit_zero (S := S1x2048x4096) hz3,
    View.ld_unit_zero (S := S1x256x4096) hz3]

/-- The one index of a [1] rectangle is 0. -/
theorem first_val (h1 : 0 < S1.numel) : (Shape.Idx.first h1 (0 : Fin 1)).val = 0 := by
  have := (Shape.Idx.first h1 (0 : Fin 1)).isLt
  have e : S1.size (0 : Fin 1) = 1 := by decide
  omega

/-- The table slot the weight window's index map reads at grid point i is slot (i 0): the batch coordinate. -/
theorem slot_eq (i : grid0.Coords) (inb : ∀ a, (k0_off1 i) a + S1.size a ≤ S4.size a) (h1 : 0 < S1.numel) :
    (Rect.unit (s := S4) (k0_off1 i) S1.size inb).emb (Shape.Idx.first h1) = ix1 (i 0) := by
  funext a; apply Fin.ext
  match a with
  | ⟨0, _⟩ =>
    show (k0_off1 i) 0 + 1 * (Shape.Idx.first h1 (0 : Fin 1)).val = (i 0).val
    rw [first_val]
    show (BitVec.ofNat 32 (i 0).val).toNat + 1 * 0 = (i 0).val
    have h4 : (i 0).val < 4 := (i 0).isLt
    rw [BitVec.toNat_ofNat, Nat.mod_eq_of_lt (by omega)]
    omega

/-- The activation window's block index at (b, o) is (b, 0, 0). -/
theorem idx0 (i : grid0.Coords) : cc0_transform_0 i = ![(i 0).val, 0, 0] := by
  have h4 : (i 0).val < 4 := (i 0).isLt
  funext a
  match a with
  | ⟨0, _⟩ => show (BitVec.ofNat 32 (i 0).val).toNat = (i 0).val; rw [BitVec.toNat_ofNat, Nat.mod_eq_of_lt (by omega)]
  | ⟨1, _⟩ => rfl
  | ⟨2, _⟩ => rfl

/-- The output window's block index at (b, o) is (b, 0, o). -/
theorem idx2 (i : grid0.Coords) : cc0_transform_2 i = ![(i 0).val, 0, (i 1).val] := by
  have h4 : (i 0).val < 4 := (i 0).isLt
  have h16 : (i 1).val < 16 := (i 1).isLt
  funext a
  match a with
  | ⟨0, _⟩ => show (BitVec.ofNat 32 (i 0).val).toNat = (i 0).val; rw [BitVec.toNat_ofNat, Nat.mod_eq_of_lt (by omega)]
  | ⟨1, _⟩ => rfl
  | ⟨2, _⟩ => show (BitVec.ofNat 32 (i 1).val).toNat = (i 1).val; rw [BitVec.toNat_ofNat, Nat.mod_eq_of_lt (by omega)]

/-- The weight window's block index at (b, o) is (the table's word at slot b, o, 0). -/
theorem idx1 (pf : pre0.Contents (Elt F)) (i : grid0.Coords) :
    cc0_transform_1 Facts₀.k0_off1_inb Facts₀.numel1_S1 pf i = ![(pf 0 (ix1 (i 0)) : BitVec 32).toNat, (i 1).val, 0] := by
  have h16 : (i 1).val < 16 := (i 1).isLt
  have e : cc0_transform_1 Facts₀.k0_off1_inb Facts₀.numel1_S1 pf i
      = ![(pf 0 ((Rect.unit (s := S4) (k0_off1 i) S1.size (Facts₀.k0_off1_inb i)).emb (Shape.Idx.first (Facts₀.numel1_S1.symm ▸ Nat.one_pos))) : BitVec 32).toNat,
          (BitVec.ofNat 32 (i 1).val).toNat, 0] := rfl
  rw [e, slot_eq, BitVec.toNat_ofNat, Nat.mod_eq_of_lt (by omega)]
  rfl

/-- The windows' index maps are the printed ones, at any admissible contents of the table. -/
theorem win0_index (a : (pcfg0 (F := F)).Adm) (t : Fin (cfg0 a).N) : ((cfg0 a).win 0).index t = cc0_transform_0 (grid0.coords t) := rfl
theorem win1_index (a : (pcfg0 (F := F)).Adm) (t : Fin (cfg0 a).N) :
    ((cfg0 a).win 1).index t = cc0_transform_1 Facts₀.k0_off1_inb Facts₀.numel1_S1 a.1 (grid0.coords t) := rfl
theorem win2_index (a : (pcfg0 (F := F)).Adm) (t : Fin (cfg0 a).N) : ((cfg0 a).win 2).index t = cc0_transform_2 (grid0.coords t) := rfl

end AnyF

variable (m : (ℓ : Loc nD τ sig) → Buf (Elt Ideal) ℓ) (ρ : Dev nD → PrngReg)

/-! ## The arrays the region finds -/

/-- The activations as the region finds them: the host's change of format is the identity on extended reals. -/
theorem V_x (c : Dev nD) : (V m c main_v0 : S4x2048x4096.Idx → EReal) = (m ((c : Thread nD τ).loc main_arg0) : S4x2048x4096.Idx → EReal) := by
  dsimp only [V, hostOps0]
  after_results
  rfl

/-- The three arguments, as functions into the extended reals and words. -/
abbrev xs (c : Dev nD) : S4x2048x4096.Idx → EReal := m ((c : Thread nD τ).loc main_arg0)
abbrev idsOf (c : Dev nD) : S4.Idx → BitVec 32 := m ((c : Thread nD τ).loc main_arg1)
abbrev ws (c : Dev nD) : S8x4096x4096.Idx → EReal := m ((c : Thread nD τ).loc main_arg2)

/-- THE VALUE the result array ends holding: the specification's function of the three arguments. -/
abbrev val (c : Dev nD) : Buf (Elt Ideal) ((c : Thread nD τ).loc main_v1) := Cert.LoraSpec.out (xs m c) (idsOf m c) (ws m c)

/-! ## The blocks at a grid point -/

section Emb
variable {F : FTy → Type} [FloatOps F] (a : (pcfg0 (F := F)).Adm)

/-- Entry (z, s, d) of the activation block at point t = (b, o) is entry (b, s, d) of the array. -/
theorem blk0_emb (t : Fin (cfg0 a).N) (z : Fin 1) (s : Fin 2048) (d : Fin 4096) :
    (((cfg0 a).win 0).blk t).view.emb (ix3 z s d) = (ix3 (grid0.coords t 0) s d : S4x2048x4096.Idx) := by
  have e := win0_index a t
  rw [idx0] at e
  have hz : z.val = 0 := by omega
  funext k; apply Fin.ext
  match k with
  | ⟨0, _⟩ =>
    show ((cfg0 a).win 0).index t (0 : Fin 3) * 1 + 1 * z.val = (grid0.coords t 0).val
    rw [e, hz]; show (grid0.coords t 0).val * 1 + 1 * 0 = _; omega
  | ⟨1, _⟩ =>
    show ((cfg0 a).win 0).index t (1 : Fin 3) * 2048 + 1 * s.val = s.val
    rw [e]; show 0 * 2048 + 1 * s.val = _; omega
  | ⟨2, _⟩ =>
    show ((cfg0 a).win 0).index t (2 : Fin 3) * 4096 + 1 * d.val = d.val
    rw [e]; show 0 * 4096 + 1 * d.val = _; omega

/-- Entry (z, r, d) of the weight block at point t = (b, o) is entry (word of slot b, o * 256 + r, d) of the bank. -/
theorem blk1_emb (t : Fin (cfg0 a).N) (z : Fin 1) (r : Fin 256) (d : Fin 4096) (j : S8x4096x4096.Idx)
    (h0 : (j 0).val = (a.1 0 (ix1 (grid0.coords t 0)) : BitVec 32).toNat)
    (h1 : (j 1).val = (grid0.coords t 1).val * 256 + r.val) (h2 : (j 2).val = d.val) :
    (((cfg0 a).win 1).blk t).view.emb (ix3 z r d) = j := by
  have e := win1_index a t
  rw [idx1] at e
  have hz : z.val = 0 := by omega
  funext k; apply Fin.ext
  match k with
  | ⟨0, _⟩ =>
    show ((cfg0 a).win 1).index t (0 : Fin 3) * 1 + 1 * z.val = (j 0).val
    rw [e, hz, h0]; show (a.1 0 (ix1 (grid0.coords t 0)) : BitVec 32).toNat * 1 + 1 * 0 = _; omega
  | ⟨1, _⟩ =>
    show ((cfg0 a).win 1).index t (1 : Fin 3) * 256 + 1 * r.val = (j 1).val
    rw [e, h1]; show (grid0.coords t 1).val * 256 + 1 * r.val = _; omega
  | ⟨2, _⟩ =>
    show ((cfg0 a).win 1).index t (2 : Fin 3) * 4096 + 1 * d.val = (j 2).val
    rw [e, h2]; show 0 * 4096 + 1 * d.val = _; omega

/-- Entry (z, s, r) of the output block at point t = (b, o) is entry (b, s, o * 256 + r) of the array. -/
theorem blk2_emb (t : Fin (cfg0 a).N) (z : Fin 1) (s : Fin 2048) (r : Fin 256) (j : S4x2048x4096.Idx)
    (h0 : (j 0).val = (grid0.coords t 0).val) (h1 : (j 1).val = s.val)
    (h2 : (j 2).val = (grid0.coords t 1).val * 256 + r.val) :
    (((cfg0 a).win 2).blk t).view.emb (ix3 z s r) = j := by
  have e := win2_index a t
  rw [idx2] at e
  have hz : z.val = 0 := by omega
  funext k; apply Fin.ext
  match k with
  | ⟨0, _⟩ =>
    show ((cfg0 a).win 2).index t (0 : Fin 3) * 1 + 1 * z.val = (j 0).val
    rw [e, hz, h0]; show (grid0.coords t 0).val * 1 + 1 * 0 = _; omega
  | ⟨1, _⟩ =>
    show ((cfg0 a).win 2).index t (1 : Fin 3) * 2048 + 1 * s.val = (j 1).val
    rw [e, h1]; show 0 * 2048 + 1 * s.val = _; omega
  | ⟨2, _⟩ =>
    show ((cfg0 a).win 2).index t (2 : Fin 3) * 256 + 1 * r.val = (j 2).val
    rw [e, h2]; show (grid0.coords t 1).val * 256 + 1 * r.val = _; omega

end Emb

/-- The activation block at point t, entry (z, s, d): the activations at (b, s, d), b the point's batch coordinate. -/
theorem iblk0_apply (hO : Ok m) (c : Dev nD) (t : Fin (cfgM m hO).N) (z : Fin 1) (s : Fin 2048) (d : Fin 4096) :
    ((iblk m hO c 0 t : S1x2048x4096.Idx → EReal) (ix3 z s d)) = xs m c (ix3 (grid0.coords t 0) s d) := by
  refine Eq.trans ?_ (congrFun (V_x m c) (ix3 (grid0.coords t 0) s d))
  exact congrArg (V m c main_v0 : S4x2048x4096.Idx → EReal) (blk0_emb (adm m hO) t z s d)

/-- The weight block at point t = (b, o), entry (z, r, d): the bank at any index j whose coordinates are
    (the table's word at slot b, o * 256 + r, d). -/
theorem iblk1_apply (hO : Ok m) (c : Dev nD) (t : Fin (cfgM m hO).N) (z : Fin 1) (r : Fin 256) (d : Fin 4096) (j : S8x4096x4096.Idx)
    (h0 : (j 0).val = (tbl m 0 (ix1 (grid0.coords t 0)) : BitVec 32).toNat)
    (h1 : (j 1).val = (grid0.coords t 1).val * 256 + r.val) (h2 : (j 2).val = d.val) :
    ((iblk m hO c 1 t : S1x256x4096.Idx → EReal) (ix3 z r d)) = ws m c j := by
  refine Eq.trans ?_ (congrFun (V_main_arg2 m c) j)
  exact congrArg (V m c main_arg2 : S8x4096x4096.Idx → EReal) (blk1_emb (adm m hO) t z r d j h0 h1 h2)

/-! ## What a point writes back -/

section Generic
variable {F : FTy → Type} [FloatOps F] (a : (pcfg0 (F := F)).Adm)

/-- Every index of the output block is (z, s, r) for literal coordinates. -/
theorem blk2_idx (t : Fin (cfg0 a).N) (y : (((cfg0 a).win 2).xblock (grid0.coords t)).Idx) :
    ∃ (z : Fin 1) (s : Fin 2048) (r : Fin 256), y = (ix3 z s r : S1x2048x256.Idx) := by
  have e : ∀ y' : S1x2048x256.Idx, ∃ (z : Fin 1) (s : Fin 2048) (r : Fin 256), y' = ix3 z s r :=
    fun y' => ⟨y' 0, y' 1, y' 2, eq_ix3 y'⟩
  exact e y

/-- The output window is uncut: what is written back is what the body left. -/
theorem flushed_apply {c : Dev nD} (dat : Dat τ (Elt F) Unit ℕ (UR sig nD τ) ℕ (cfg0 a) c) (t : Fin (cfg0 a).N)
    (z : Fin 1) (s : Fin 2048) (r : Fin 256) :
    dat.flushed 2 t (ix3 z s r) = (dat.after 2 t : S1x2048x256.Idx → Elt F .f32) (ix3 z s r) := rfl

/-- An array read through the output block at (z, s, r) is the array at the block's embedded index. -/
theorem read2_apply (t : Fin (cfg0 a).N) (A : S4x2048x4096.Idx → Elt F .f32) (z : Fin 1) (s : Fin 2048) (r : Fin 256) :
    (((cfg0 a).win 2).blk t).view.read (Elt F) A (ix3 z s r) = A ((((cfg0 a).win 2).blk t).view.emb (ix3 z s r)) := rfl

/-- Every pair (batch entry, out-feature tile) is some grid point's. -/
theorem onto : ∀ (q0 : Fin 4) (q1 : Fin 16), ∃ t : Fin grid0.N, (grid0.coords t 0).val = q0.val ∧ (grid0.coords t 1).val = q1.val := by
  decide +kernel

/-- The output blocks cover the result array: index (b, s, o) is entry (0, s, o mod 256) of the block of the point
    (b, o / 256). -/
theorem cover (i : S4x2048x4096.Idx) : ∃ t : Fin (cfg0 a).N, ((cfg0 a).win 2).flush t = true ∧ i ∈ (((cfg0 a).win 2).blk t).view.set := by
  have h0 : (i 0).val < 4 := (i 0).isLt
  have h1 : (i 1).val < 2048 := (i 1).isLt
  have h2 : (i 2).val < 4096 := (i 2).isLt
  obtain ⟨t, ht0, ht1⟩ := onto ⟨(i 0).val, h0⟩ ⟨(i 2).val / 256, by omega⟩
  have ht0' : (grid0.coords t 0).val = (i 0).val := ht0
  have ht1' : (grid0.coords t 1).val = (i 2).val / 256 := ht1
  refine ⟨t, flush0_2 a t, ?_⟩
  have hj := blk2_emb a t (0 : Fin 1) (⟨(i 1).val, h1⟩ : Fin 2048) (⟨(i 2).val % 256, Nat.mod_lt _ (by decide)⟩ : Fin 256) i
    ht0'.symm rfl (by rw [ht1']; show (i 2).val = (i 2).val / 256 * 256 + (i 2).val % 256; omega)
  have hm := (((cfg0 a).win 2).blk t).view.emb_mem_set
    (ix3 (0 : Fin 1) (⟨(i 1).val, h1⟩ : Fin 2048) (⟨(i 2).val % 256, Nat.mod_lt _ (by decide)⟩ : Fin 256))
  rw [hj] at hm
  exact hm

end Generic

/-- WHAT POINT t WRITES BACK is block t of the specification's function of the three arguments. -/
theorem flushed_eq (hO : Ok m) (c : Dev nD) (hlt : ∀ k : Fin 4, (idsOf m c (ix1 k)).toNat < 8) (t : Fin (cfgM m hO).N) :
    (dats m hO 0 c).flushed 2 t = (((cfgM m hO).win 2).blk t).view.read (Elt Ideal) (val m c) := by
  obtain rfl : c = 0 := Subsingleton.elim _ _
  funext y
  obtain ⟨z, s, r, rfl⟩ := blk2_idx (adm m hO) t y
  have hr : r.val < 256 := r.isLt
  have ho : (grid0.coords t 1).val < 16 := (grid0.coords t 1).isLt
  -- the array index the block's entry (z, s, r) sits at
  have hj := blk2_emb (adm m hO) t z s r
    (ix3 (grid0.coords t 0) s (⟨(grid0.coords t 1).val * 256 + r.val, by omega⟩ : Fin 4096)) rfl rfl rfl
  refine (flushed_apply (adm m hO) (dats m hO 0 0) t z s r).trans ?_
  refine Eq.trans ?_ ((read2_apply (adm m hO) t (val m 0) z s r).trans (congrArg (val m 0) hj)).symm
  have e1 : (dats m hO 0 0).after 2 t = outsAt0 m hO 0 t := after0_2 m hO 0 t
  have e2 : outsAt0 m hO 0 t = k0_pay1 (iblk m hO 0 0 t) (iblk m hO 0 1 t) :=
    out_piece 0 (grid0.coords t) (ms0_0 m hO t) (hs0_0 m hO t) (ms0_1 m hO t) (hs0_1 m hO t) (ms0_2 m hO t) (hs0_2 m hO t)
      (iblk m hO 0 0 t) (iblk m hO 0 1 t) (tbl m 0)
  refine (congrFun (e1.trans e2) (ix3 z s r)).trans ?_
  refine (Cert.KernelIdeal.PayEntry.pay_entry (iblk m hO 0 0 t) (iblk m hO 0 1 t) z s r).trans ?_
  have hw : (Cert.LoraSpec.adapter (idsOf m 0) (grid0.coords t 0)).val = (tbl m 0 (ix1 (grid0.coords t 0)) : BitVec 32).toNat :=
    (Cert.LoraSpec.adapter_val _ _ (hlt (grid0.coords t 0))).trans
      (congrArg BitVec.toNat (Cert.KernelIdeal.OkOfPre.tbl_eq m (ix1 (grid0.coords t 0))).symm)
  have hspec : val m 0 (ix3 (grid0.coords t 0) s (⟨(grid0.coords t 1).val * 256 + r.val, by omega⟩ : Fin 4096))
      = ∑ d : Fin 4096, xs m 0 (ix3 (grid0.coords t 0) s d)
          * ws m 0 (ix3 (Cert.LoraSpec.adapter (idsOf m 0) (grid0.coords t 0)) (⟨(grid0.coords t 1).val * 256 + r.val, by omega⟩ : Fin 4096) d) := rfl
  refine Eq.trans ?_ hspec.symm
  refine Finset.sum_congr rfl fun d _ => ?_
  exact congrArg₂ (fun p q : EReal => p * q) (iblk0_apply m hO 0 t 0 s d)
    (iblk1_apply m hO 0 t 0 r d (ix3 (Cert.LoraSpec.adapter (idsOf m 0) (grid0.coords t 0))
      (⟨(grid0.coords t 1).val * 256 + r.val, by omega⟩ : Fin 4096) d) hw rfl rfl)

/-- So the result array ends holding the specification's function. -/
theorem final (hO : Ok m) (c : Dev nD) (hlt : ∀ k : Fin 4, (idsOf m c (ix1 k)).toNat < 8) :
    (dats m hO 0 c).arrAt 2 (cfgM m hO).N = val m c :=
  (dats m hO 0 c).arrAt_eq_of_cover 2 (val m c) (fun t _ => flushed_eq m hO c hlt t) (cover (adm m hO))

/-- THE KERNEL'S RUN with its result named: the result array at the specification's function of the arguments, the
    arguments unchanged. -/
theorem run (hO : Ok m) (hlt : ∀ (c : Dev nD) (k : Fin 4), (idsOf m c (ix1 k)).toNat < 8) :
    θ_run defs (onTc (τ := τ) (main (F := Ideal))) ⟨m, fun _ => 0, ρ⟩ fun r => ∀ c : Dev nD,
      r.2.mem ((c.tc : Thread nD τ).loc main_v1) = val m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨((h c).1 2).trans (final m hO c (hlt c)),
      ((h c).2 main_arg0 (by decide : main_arg0 ∈ Pipeline.restRefs sig spec0)).trans (V_main_arg0 m c),
      ((h c).2 main_arg1 (by decide : main_arg1 ∈ Pipeline.restRefs sig spec0)).trans (V_main_arg1 m c),
      ((h c).1 1).trans (((dats m hO 0 c).arrAt_in 1 rfl _).trans ((A_eq m hO c 1).trans (V_main_arg2 m c)))⟩)
    (run_main m ρ hO)

end Cert.KernelIdeal.KValue

end
-- ==== Proof.RefRun.lean ====
/-
  The reference program's run, read back.

  The reference is a straight line of host operations: jnp.take's index handling (a negative id is wrapped by adding 8;
  the wrapped id is tested to lie in 0 … 7; the weight bank is gathered at the wrapped ids; where the test fails the
  gathered slab is replaced by NaN) followed by one batched product contracting the in-feature axis of the activations
  with the in-feature axis of the gathered weights. Every weakly fair execution terminates with the result buffer at
  that composed term of the three arguments, and the arguments unchanged.
-/
import proofs.«165096_g63883343560842_cont_9to1_m_1300_3_alg».proof.ReferenceIdeal
import proofs.«165096_g63883343560842_cont_9to1_m_1300_3_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The ids as jnp.take uses them: a negative id has 8 added; then laid out as a [4, 1] column of start indices. -/
def wrapped (ids : IVec S4 32) : IVec S4x1 32 :=
  broadcastInDim S4x1 ![0] bcast_S4_S4x1_0
    (select (cmpi .slt ids (broadcastInDim S4 ![] bcast_S_S4 (constantI S_ 32 0#32)))
      (addi ids (broadcastInDim S4 ![] bcast_S_S4 (constantI S_ 32 8#32))) ids)

/-- Per batch entry: is the wrapped id in 0 … 7? -/
def inRange (v : IVec S4x1 32) : IVec S4 1 :=
  Host.reduce IntOp.andi
    (andi (cmpi .sge v (broadcastInDim S4x1 ![] bcast_S_S4x1 (constantI S_ 32 0#32)))
      (cmpi .sle v (broadcastInDim S4x1 ![0, 1] bcast_S1x1_S4x1_0_1 (broadcastInDim S1x1 ![1] bcast_S1_S1x1_1 (constantI S1 32 7#32)))))
    (constantI S_ 1 1#1) reducesTo_S4x1_S4_d1 h_S_

/-- The per-example weights: the bank gathered at the wrapped ids, NaN where an id is out of range. -/
def taken (w : FVec F S8x4096x4096 .f32) (ids : IVec S4 32) : FVec F S4x4096x4096 .f32 :=
  select (broadcastInDim S4x4096x4096 ![0] bcast_S4_S4x4096x4096_0 (inRange (wrapped ids)))
    (Host.gather gather_S8x4096x4096_S4x1_S4x4096x4096_12_0_n_n_0_1_140964096 w (wrapped ids))
    (broadcastInDim S4x4096x4096 ![] bcast_S_S4x4096x4096 (constant S_ .f32 0x7FC00000#32))

/-- The reference's result: the batched product of the activations with the per-example weights. -/
def result (x : FVec F S4x2048x4096 .f32) (ids : IVec S4 32) (w : FVec F S8x4096x4096 .f32) : FVec F S4x2048x4096 .f32 :=
  Host.dotGeneral dot_S4x2048x4096_S4x4096x4096_S4x2048x4096_2_2_1_1_0_0 none x (taken w ids)

/-- @main's 24 operations in order, the two outlined functions' bodies listed at their calls over the calls' buffers. -/
abbrev ops : List (HloOp τ sig (Elt F)) :=
  [ TRef.nullary main_call0.c (constantI S_ 32 0#32),
    TRef.unary main_call0.c main_call0.v0 (broadcastInDim S4 ![] bcast_S_S4),
    TRef.binary (.of main_arg1) main_call0.v0 main_call0.v1 (cmpi .slt),
    TRef.nullary main_call0.c_0 (constantI S_ 32 8#32),
    TRef.unary main_call0.c_0 main_call0.v2 (broadcastInDim S4 ![] bcast_S_S4),
    TRef.binary (.of main_arg1) main_call0.v2 main_call0.v3 addi,
    TRef.ternary main_call0.v1 main_call0.v3 (.of main_arg1) main_call0.call0.v0 select,
    TRef.unary main_call0.call0.v0 main_call0.v5 (broadcastInDim S4x1 ![0] bcast_S4_S4x1_0),
    TRef.nullary main_call0.c_1 (constantI S1 32 7#32),
    TRef.nullary main_call0.c_2 (constantI S_ 32 0#32),
    TRef.unary main_call0.c_2 main_call0.v6 (broadcastInDim S4x1 ![] bcast_S_S4x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S4x1 ![0, 1] bcast_S1x1_S4x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S4x1_S4_d1 h_S_),
    TRef.binary (.of main_arg2) main_call0.v5 main_call0.v13 (fun x i => Host.gather gather_S8x4096x4096_S4x1_S4x4096x4096_12_0_n_n_0_1_140964096 x i),
    TRef.unary main_call0.v12 main_call0.v14 (broadcastInDim S4x4096x4096 ![0] bcast_S4_S4x4096x4096_0),
    TRef.nullary main_call0.cst (constant S_ .f32 0x7FC00000#32),
    TRef.unary main_call0.cst main_call0.v15 (broadcastInDim S4x4096x4096 ![] bcast_S_S4x4096x4096),
    TRef.ternary main_call0.v14 main_call0.v13 main_call0.v15 main_call0.v16 select,
    binary main_arg0 main_v0 main_v1 ((fun l r => Host.dotGeneral dot_S4x2048x4096_S4x4096x4096_S4x2048x4096_2_2_1_1_0_0 none l r) : (⟨S4x2048x4096, .f32⟩ : BufTy).Contents (Elt F) → (⟨S4x4096x4096, .f32⟩ : BufTy).Contents (Elt F) → (⟨S4x2048x4096, .f32⟩ : BufTy).Contents (Elt F)) ]

set_option maxRecDepth 2048 in
/-- @main is that straight line: the outlined functions unfolded at their calls, sequencing re-associated. -/
theorem main_eq (c : Dev nD) : main (F := F) c = seq ops := by
  simp only [main, fn_take.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub .., binary_bufs_sub ..⟩

attribute [local irreducible] Host.reduce Host.gather in
set_option maxRecDepth 8192 in
set_option maxHeartbeats 1000000 in
/-- The fold of the operations at the result buffer is `result` of the three arguments. -/
theorem out_eq (V : Valuation τ sig (Elt F)) :
    after ops V (main_v1 : DevRef τ sig)
      = result (V (main_arg0 : DevRef τ sig)) (V (main_arg1 : DevRef τ sig)) (V (main_arg2 : DevRef τ sig)) := by
  unfold result taken inRange wrapped
  after_results
  rfl

theorem arg0_eq (V : Valuation τ sig (Elt F)) : after ops V (main_arg0 : DevRef τ sig) = V (main_arg0 : DevRef τ sig) := by
  after_results
theorem arg1_eq (V : Valuation τ sig (Elt F)) : after ops V (main_arg1 : DevRef τ sig) = V (main_arg1 : DevRef τ sig) := by
  after_results
theorem arg2_eq (V : Valuation τ sig (Elt F)) : after ops V (main_arg2 : DevRef τ sig) = V (main_arg2 : DevRef τ sig) := by
  after_results

/-- On every device, from any memory with zero counters: every weakly fair execution of @main terminates with the result
    at `result` of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v1)
          = result (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v1).trans (out_eq _), (h c main_arg0).trans (arg0_eq _),
      (h c main_arg1).trans (arg1_eq _), (h c main_arg2).trans (arg2_eq _)⟩)
    (run_seq scopedRefs_eq scopedSems_eq defs main (fun _ => ops) main_eq (fun _ => ops_sub) m ρ)

end Cert.ReferenceIdeal.RefRun

end
-- ==== Proof.LibAndAll.lean ====
/-
  A reduction by "and" over one-bit words that are all 1, from the initial value 1, is 1.

  The converse of reading a true jnp.all back element by element: the host's one-operand reduce by "and" is a left fold
  over the operand indices that drop to the result index, and a fold of "and" that starts at 1 and meets only 1s ends at 1.
-/
import Idealize.ShloMosaic.Lib.ReduceAll

namespace Cert.LibAndAll

open Idealize.ShloMosaic

/-- A left fold by "and" from 1 over words that are all 1 is 1. -/
theorem foldl_andi_one {ι : Type} (f : ι → BitVec 1) :
    ∀ (l : List ι) (init : BitVec 1), init = 1#1 → (∀ n ∈ l, f n = 1#1) → l.foldl (fun r n => IntOp.andi r (f n)) init = 1#1
  | [], _, h, _ => h
  | a :: l, _, h, hl =>
    foldl_andi_one f l _ (IntOp.andi_eq_one.2 ⟨h, hl a (List.mem_cons_self ..)⟩) (fun n hn => hl n (List.mem_cons_of_mem _ hn))

/-- The host's reduce by "and" of an all-1 operand from an initial value 1 is 1 at every result index. -/
theorem reduce_andi_one {s t u : Shape} {axes : List (Fin s.rank)} (x : s.Idx → BitVec 1) (init : u.Idx → BitVec 1)
    (h : s.ReducesTo axes t) (hu : 0 < u.numel) (j : t.Idx) (hinit : init (Shape.Idx.first hu) = 1#1) (hx : ∀ i, x i = 1#1) :
    Host.reduce IntOp.andi x init h hu j = 1#1 := by
  rw [Host.reduce_eq_foldl]
  exact foldl_andi_one x _ _ hinit (fun n _ => hx n)

end Cert.LibAndAll
-- ==== Proof.RefValue.lean ====
/-
  The reference's result, index by index, when every adapter id is in 0 … 7.

  jnp.take wraps a negative id (none is negative), tests the wrapped id against 0 … 7 (every test passes, so the NaN fill is
  never selected) and gathers slab ids[b] of the bank for batch entry b (the gather's clamp into 0 … 7 leaves the id). The
  batched product then contracts the in-feature axis: entry (b, s, o) is the sum over d of x (b, s, d) * w (ids[b], o, d),
  the specification's function.
-/
import proofs.«165096_g63883343560842_cont_9to1_m_1300_3_alg».proof.Proof.RefRun
import proofs.«165096_g63883343560842_cont_9to1_m_1300_3_alg».proof.Proof.LibDotLast
import proofs.«165096_g63883343560842_cont_9to1_m_1300_3_alg».proof.Proof.LibAndAll
import proofs.«165096_g63883343560842_cont_9to1_m_1300_3_alg».proof.Proof.Spec
import Idealize.ShloMosaic.Lib.Pipeline.Value
import Idealize.ShloMosaic.Lib.ValueIdx

noncomputable section

namespace Cert.ReferenceIdeal.RefValue

open Cert.ReferenceIdeal Cert.ReferenceIdeal.Gen Cert.ReferenceIdeal.RefRun
open Idealize.ShloMosaic Idealize.ShloMosaic.ValueIdx

abbrev GD := gather_S8x4096x4096_S4x1_S4x4096x4096_12_0_n_n_0_1_140964096
abbrev DD := dot_S4x2048x4096_S4x4096x4096_S4x2048x4096_2_2_1_1_0_0

/-- The reference's product is batched on axis 0 and contracts both operands' last axes. -/
theorem dot_last : Cert.LibDotLast.IsLast3 DD := ⟨rfl, rfl, rfl, rfl, rfl, rfl⟩

/-- A [4] vector laid out as a [4, 1] column reads entry b at (b, z). -/
theorem column_apply {α : Type} (v : S4.Idx → α) (b : Fin 4) (z : Fin 1) :
    broadcastInDim S4x1 ![0] bcast_S4_S4x1_0 v (ix2 b z) = v (ix1 b) :=
  broadcastInDim_apply _ _ v (ix2 b z) (ix1 b) (fun a => by match a with | ⟨0, _⟩ => rfl)

/-- A [4] vector broadcast along the two trailing axes of [4, 4096, 4096] reads entry b at (b, o, d). -/
theorem slab_apply {α : Type} (v : S4.Idx → α) (b : Fin 4) (o d : Fin 4096) :
    broadcastInDim S4x4096x4096 ![0] bcast_S4_S4x4096x4096_0 v (ix3 b o d) = v (ix1 b) :=
  broadcastInDim_apply _ _ v (ix3 b o d) (ix1 b) (fun a => by match a with | ⟨0, _⟩ => rfl)

section InRange

variable (ids : IVec S4 32) (hlt : ∀ k : Fin 4, (ids (ix1 k)).toNat < 8)
  (hint : ∀ k : Fin 4, (ids (ix1 k)).toInt = ((ids (ix1 k)).toNat : Int))

include hint in
/-- No id is negative, so the wrap is not taken: the start index of batch entry b is ids[b]. -/
theorem wrapped_apply (b : Fin 4) (z : Fin 1) : wrapped ids (ix2 b z) = ids (ix1 b) := by
  unfold wrapped
  rw [column_apply]
  show Scalar.select (IntOp.cmpi .slt (ids (ix1 b)) 0#32) _ (ids (ix1 b)) = _
  refine if_neg fun h => ?_
  have h' := IntOp.cmpi_slt.1 h
  have e0 : (0#32 : BitVec 32).toInt = 0 := by decide
  rw [hint b, e0] at h'
  omega

include hlt hint in
/-- Every wrapped id passes the range test. -/
theorem inRange_apply (b : Fin 4) : inRange (wrapped ids) (ix1 b) = 1#1 := by
  unfold inRange
  refine Cert.LibAndAll.reduce_andi_one _ _ _ _ _ rfl fun i => ?_
  rw [eq_ix2 i]
  show IntOp.andi (IntOp.cmpi .sge (wrapped ids (ix2 (i 0) (i 1))) 0#32) (IntOp.cmpi .sle (wrapped ids (ix2 (i 0) (i 1))) 7#32) = 1#1
  rw [wrapped_apply ids hint (i 0) (i 1)]
  have e0 : (0#32 : BitVec 32).toInt = 0 := by decide
  have e7 : (7#32 : BitVec 32).toInt = 7 := by decide
  have h8 := hlt (i 0)
  refine IntOp.andi_eq_one.2 ⟨IntOp.cmpi_sge.2 ?_, IntOp.cmpi_sle.2 ?_⟩
  · rw [hint (i 0), e0]; omega
  · rw [hint (i 0), e7]; omega

end InRange

/-- THE GATHER READ AT (b, o, d): slab (start index of b, read signed and clamped into 0 … 7) of the bank, at (o, d). -/
theorem gather_apply {α : Type} (w : S8x4096x4096.Idx → α) (idx : IVec S4x1 32) (b : Fin 4) (o d : Fin 4096) :
    Host.gather GD w idx (ix3 b o d)
      = w (ix3 (⟨min (idx (ix2 b (0 : Fin 1))).toInt.toNat 7, by omega⟩ : Fin 8) o d) := by
  unfold Host.gather
  refine congrArg w (funext fun a => Fin.ext ?_)
  have hsi : GD.siIdx (ix3 b o d) ⟨List.idxOf (0 : Fin 3) GD.startIndexMap, List.idxOf_lt_length_iff.2 (List.mem_singleton.mpr rfl)⟩
      = ix2 b (0 : Fin 1) := by
    funext k; refine Fin.ext ?_
    match k with
    | ⟨0, _⟩ => rfl
    | ⟨1, _⟩ => rfl
  match a with
  | ⟨0, _⟩ =>
    show GD.start (ix3 b o d) idx 0 + GD.batchCoord (ix3 b o d) 0 + GD.offCoord (ix3 b o d) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 3) ∈ GD.startIndexMap from List.mem_singleton.mpr rfl), hsi]
    rfl
  | ⟨1, _⟩ =>
    show GD.start (ix3 b o d) idx 1 + GD.batchCoord (ix3 b o d) 1 + GD.offCoord (ix3 b o d) 1 = o.val
    rw [GatherDims.batchCoord_eq_zero _ _ _ List.not_mem_nil]
    unfold GatherDims.start
    rw [dif_neg (show ¬ (1 : Fin 3) ∈ GD.startIndexMap from fun h => Nat.one_ne_zero (congrArg Fin.val (List.mem_singleton.mp h)))]
    show 0 + 0 + GD.offCoord (ix3 b o d) 1 = o.val
    simp only [Nat.zero_add]
    rfl
  | ⟨2, _⟩ =>
    show GD.start (ix3 b o d) idx 2 + GD.batchCoord (ix3 b o d) 2 + GD.offCoord (ix3 b o d) 2 = d.val
    rw [GatherDims.batchCoord_eq_zero _ _ _ List.not_mem_nil]
    unfold GatherDims.start
    rw [dif_neg (show ¬ (2 : Fin 3) ∈ GD.startIndexMap from fun h => (by decide : ¬ (2 : Nat) = 0) (congrArg Fin.val (List.mem_singleton.mp h)))]
    show 0 + 0 + GD.offCoord (ix3 b o d) 2 = d.val
    simp only [Nat.zero_add]
    rfl

section Result

variable (x : FVec Ideal S4x2048x4096 .f32) (ids : IVec S4 32) (w : FVec Ideal S8x4096x4096 .f32)
  (hlt : ∀ k : Fin 4, (ids (ix1 k)).toNat < 8)
  (hint : ∀ k : Fin 4, (ids (ix1 k)).toInt = ((ids (ix1 k)).toNat : Int))

include hlt hint in
/-- The per-example weights at (b, o, d): the bank at (adapter of b, o, d). -/
theorem taken_apply (b : Fin 4) (o d : Fin 4096) :
    (taken w ids (ix3 b o d) : EReal) = w (ix3 (Cert.LoraSpec.adapter ids b) o d) := by
  unfold taken
  show Scalar.select (broadcastInDim S4x4096x4096 ![0] bcast_S4_S4x4096x4096_0 (inRange (wrapped ids)) (ix3 b o d))
    (Host.gather GD w (wrapped ids) (ix3 b o d)) _ = _
  rw [slab_apply, inRange_apply ids hlt hint b, select_one, gather_apply]
  refine congrArg (fun p : Fin 8 => w (ix3 p o d)) (Fin.ext ?_)
  show min (wrapped ids (ix2 b (0 : Fin 1))).toInt.toNat 7 = (Cert.LoraSpec.adapter ids b).val
  rw [wrapped_apply ids hint b 0, Cert.LoraSpec.adapter_val ids b (hlt b), hint b, Int.toNat_natCast]
  have := hlt b
  omega

include hlt hint in
/-- THE REFERENCE IS THE SPECIFICATION. -/
theorem result_eq : result x ids w = Cert.LoraSpec.out x ids w := by
  funext j
  obtain ⟨b, s, o, rfl⟩ : ∃ (b : Fin 4) (s : Fin 2048) (o : Fin 4096), j = ix3 b s o := ⟨j 0, j 1, j 2, eq_ix3 j⟩
  show FloatOps.dotGeneral DD none .single x (taken w ids) (ix3 b s o) = _
  refine (Cert.LibDotLast.dotGeneral_apply DD dot_last none .single x (taken w ids) b s o).trans ?_
  rw [Cert.LoraSpec.out_ix3]
  unfold Cert.LoraSpec.entry
  refine Finset.sum_congr rfl fun d _ => ?_
  rw [taken_apply ids w hlt hint b o d]

end Result

end Cert.ReferenceIdeal.RefValue

end
-- ==== Proof.lean ====
/-
  A multi-adapter linear layer: out[b] = x[b] @ weight[ids[b]]ᵀ, for x of shape [4, 2048, 4096], a bank of eight
  [4096, 4096] weight matrices and four adapter ids.

  The kernel streams, for grid point (b, o), the activation slab of batch entry b and the 256-row tile o of the weight
  matrix that the prefetched id of b selects, multiplies them on the matrix unit contracting the in-feature axis, and writes
  the [2048, 256] product into columns 256·o … 256·o + 255 of slab b of the result. The reference gathers the four selected
  weight matrices (jnp.take: a negative id is wrapped, an id outside 0 … 7 would give NaN) and takes one batched product.

  Precondition: the float inputs are finite (never used: the equality below is between two spellings of the same finite sum
  in the extended reals) and every id is in 0 … 7. The second conjunct is what makes the kernel's weight blocks lie inside the
  bank — without it the kernel faults — and what makes the reference's take a plain row selection.

  Over the extended reals both programs compute, at every index (b, s, o),

      sum over d of x (b, s, d) * weight (ids[b], o, d).

  The kernel's side: each grid point writes back the block of that function its block index names, and the blocks tile the
  result. The reference's side: the wrap is not taken, the range test passes, the gather reads slab ids[b], and the batched
  dot_general is that sum. The word-level kernel and its idealization differ by no rewrite, so "preserves" has nothing to state.
-/
import proofs.«165096_g63883343560842_cont_9to1_m_1300_3_alg».proof.Defs
import proofs.«165096_g63883343560842_cont_9to1_m_1300_3_alg».proof.Proof.Gen.Kernel
import proofs.«165096_g63883343560842_cont_9to1_m_1300_3_alg».proof.Proof.Gen.Kernel.Skeleton
import proofs.«165096_g63883343560842_cont_9to1_m_1300_3_alg».proof.Proof.Gen.Kernel.Launch
import proofs.«165096_g63883343560842_cont_9to1_m_1300_3_alg».proof.Proof.Gen.Kernel.Points
import proofs.«165096_g63883343560842_cont_9to1_m_1300_3_alg».proof.Proof.Gen.Kernel.Frame
import proofs.«165096_g63883343560842_cont_9to1_m_1300_3_alg».proof.Proof.Gen.KernelIdeal
import proofs.«165096_g63883343560842_cont_9to1_m_1300_3_alg».proof.Proof.Gen.KernelIdeal.Skeleton
import proofs.«165096_g63883343560842_cont_9to1_m_1300_3_alg».proof.Proof.Gen.KernelIdeal.Launch
import proofs.«165096_g63883343560842_cont_9to1_m_1300_3_alg».proof.Proof.Gen.KernelIdeal.Points
import proofs.«165096_g63883343560842_cont_9to1_m_1300_3_alg».proof.Proof.Gen.KernelIdeal.Frame
import proofs.«165096_g63883343560842_cont_9to1_m_1300_3_alg».proof.Proof.Gen.ReferenceIdeal
import proofs.«165096_g63883343560842_cont_9to1_m_1300_3_alg».proof.Proof.Gen.Pre_finite_inputs
import proofs.«165096_g63883343560842_cont_9to1_m_1300_3_alg».proof.Proof.IdsRange
import proofs.«165096_g63883343560842_cont_9to1_m_1300_3_alg».proof.Proof.OkBits
import proofs.«165096_g63883343560842_cont_9to1_m_1300_3_alg».proof.Proof.OkIdeal
import proofs.«165096_g63883343560842_cont_9to1_m_1300_3_alg».proof.Proof.KernelValue
import proofs.«165096_g63883343560842_cont_9to1_m_1300_3_alg».proof.Proof.RefRun
import proofs.«165096_g63883343560842_cont_9to1_m_1300_3_alg».proof.Proof.RefValue
import Idealize.ShloMosaic.Adequacy
import Idealize.ShloMosaic.Init

noncomputable section

namespace Cert.Proof

open Idealize.ShloMosaic Idealize.SL.Sem Idealize.ShloMosaic.ValueIdx

/-- The word-level kernel runs without a fault and leaves its arguments: every weight block it fetches is inside the bank. -/
theorem frame_kernel : Cert.frame_Kernel := fun m ρ h =>
  Cert.Kernel.Gen.frame m ρ (Cert.Kernel.OkOfPre.ok_of_pre m h)

/-- The same for the kernel read over the extended reals. -/
theorem frame_kernelIdeal : Cert.frame_KernelIdeal := fun m ρ h =>
  Cert.KernelIdeal.Gen.frame m ρ (Cert.KernelIdeal.OkOfPre.ok_of_pre m h)

/-- The reference is a straight line of host operations: it runs and leaves its arguments. -/
theorem frame_reference : Cert.frame_ReferenceIdeal := fun m ρ _ =>
  (θ_run Cert.ReferenceIdeal.defs _ _).mono (fun _ h c => (h c).2) (Cert.ReferenceIdeal.RefRun.run (F := Ideal) m ρ)

/-- No operation of the kernel was rewritten for the reading over the extended reals. -/
theorem preserves : Cert.preserves_Kernel_KernelIdeal := trivial

/-- Both programs end with the result array at the same function of the arguments: the sum over the in-feature axis of
    x (b, s, d) * weight (ids[b], o, d). -/
theorem algebraic : Cert.algebraic_KernelIdeal_ReferenceIdeal := by
  intro m ρ m' ρ' hpre hagree
  have hlt : ∀ (c : Dev Cert.KernelIdeal.nD) (k : Fin 4), (Cert.KernelIdeal.KValue.idsOf m c (ix1 k)).toNat < 8 :=
    fun c k => Cert.IdsRange.ids_lt _ _ _ (hpre c) k
  have hint : ∀ (c : Dev Cert.KernelIdeal.nD) (k : Fin 4),
      (Cert.KernelIdeal.KValue.idsOf m c (ix1 k)).toInt = ((Cert.KernelIdeal.KValue.idsOf m c (ix1 k)).toNat : Int) :=
    fun c k => Cert.IdsRange.ids_toInt _ _ _ (hpre c) k
  refine ⟨fun c => Cert.KernelIdeal.KValue.val m c,
    Cert.KernelIdeal.KValue.run m ρ (Cert.KernelIdeal.OkOfPre.ok_of_pre m hpre) hlt, ?_⟩
  refine (θ_run Cert.ReferenceIdeal.defs _ _).mono (fun _ h c => ⟨?_, (h c).2⟩)
    (Cert.ReferenceIdeal.RefRun.run (F := Ideal) m' ρ')
  rw [(h c).1, (hagree c).1, (hagree c).2.1, (hagree c).2.2]
  exact Cert.ReferenceIdeal.RefValue.result_eq _ _ _ (hlt c) (hint c)

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
